-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x64x32x32 : Shape := ⟨5, ![8, 8, 64, 32, 32]⟩
abbrev S_ : Shape := ⟨0, ![]⟩

class Facts : Prop where
  bcast_S_S8x8x64x32x32 : S_.BroadcastsInDim S8x8x64x32x32 (![] : Fin 0 → Fin S8x8x64x32x32.rank)
  reducesTo_S8x8x64x32x32_S_d0_1_2_3_4 : S8x8x64x32x32.ReducesTo [0, 1, 2, 3, 4] S_
  h_S_ : 0 < S_.numel

variable [Facts]

def fn {F : FTy → Type} [FloatOps F] (main_arg0 : FVec F S8x8x64x32x32 .f32) (main_arg1 : FVec F S8x8x64x32x32 .f32) (main_arg2 : FVec F S8x8x64x32x32 .f32) : IVec S_ 1 :=
  let main_v0 : FVec F S8x8x64x32x32 .f32 := Host.absf main_arg0
  let main_cst : FVec F S_ .f32 := constant S_ .f32 0x7F800000#32
  let main_v1 : FVec F S8x8x64x32x32 .f32 := broadcastInDim S8x8x64x32x32 ![] bcast_S_S8x8x64x32x32 main_cst
  let main_v2 : IVec S8x8x64x32x32 1 := cmpf .olt main_v0 main_v1
  let main_c : IVec S_ 1 := constantI S_ 1 1#1
  let main_v3 : IVec S_ 1 := (fun x v => Host.reduce IntOp.andi x v reducesTo_S8x8x64x32x32_S_d0_1_2_3_4 h_S_) main_v2 main_c
  let main_v4 : FVec F S8x8x64x32x32 .f32 := Host.absf main_arg1
  let main_cst_0 : FVec F S_ .f32 := constant S_ .f32 0x7F800000#32
  let main_v5 : FVec F S8x8x64x32x32 .f32 := broadcastInDim S8x8x64x32x32 ![] bcast_S_S8x8x64x32x32 main_cst_0
  let main_v6 : IVec S8x8x64x32x32 1 := cmpf .olt main_v4 main_v5
  let main_c_1 : IVec S_ 1 := constantI S_ 1 1#1
  let main_v7 : IVec S_ 1 := (fun x v => Host.reduce IntOp.andi x v reducesTo_S8x8x64x32x32_S_d0_1_2_3_4 h_S_) main_v6 main_c_1
  let main_v8 : IVec S_ 1 := andi main_v3 main_v7
  let main_v9 : FVec F S8x8x64x32x32 .f32 := Host.absf main_arg2
  let main_cst_2 : FVec F S_ .f32 := constant S_ .f32 0x7F800000#32
  let main_v10 : FVec F S8x8x64x32x32 .f32 := broadcastInDim S8x8x64x32x32 ![] bcast_S_S8x8x64x32x32 main_cst_2
  let main_v11 : IVec S8x8x64x32x32 1 := cmpf .olt main_v9 main_v10
  let main_c_3 : IVec S_ 1 := constantI S_ 1 1#1
  let main_v12 : IVec S_ 1 := (fun x v => Host.reduce IntOp.andi x v reducesTo_S8x8x64x32x32_S_d0_1_2_3_4 h_S_) main_v11 main_c_3
  let main_v13 : IVec S_ 1 := andi main_v8 main_v12
  main_v13
-- ==== Kernel.lean ====
abbrev S8x8x64x32x32 : Shape := ⟨5, ![8, 8, 64, 32, 32]⟩
abbrev S8x8x64x1024 : Shape := ⟨4, ![8, 8, 64, 1024]⟩
abbrev S1x1x64x1024 : Shape := ⟨4, ![1, 1, 64, 1024]⟩
abbrev S64x1024 : Shape := ⟨2, ![64, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x64x32x32, .f32⟩
  | .hbm, ⟨1, _⟩ => ⟨S8x8x64x32x32, .f32⟩
  | .hbm, ⟨2, _⟩ => ⟨S8x8x64x32x32, .f32⟩
  | .hbm, ⟨3, _⟩ => ⟨S8x8x64x1024, .f32⟩
  | .hbm, ⟨4, _⟩ => ⟨S8x8x64x1024, .f32⟩
  | .hbm, ⟨5, _⟩ => ⟨S8x8x64x1024, .f32⟩
  | .hbm, ⟨6, _⟩ => ⟨S8x8x64x1024, .f32⟩
  | .hbm, ⟨7, _⟩ => ⟨S8x8x64x32x32, .f32⟩
  | .local _ .vmem, ⟨0, _⟩ => ⟨S1x1x64x1024, .f32⟩
  | .local _ .vmem, ⟨1, _⟩ => ⟨S1x1x64x1024, .f32⟩
  | .local _ .vmem, ⟨2, _⟩ => ⟨S1x1x64x1024, .f32⟩
  | .local _ .vmem, ⟨3, _⟩ => ⟨S1x1x64x1024, .f32⟩
  | .local _ .vmem, ⟨4, _⟩ => ⟨S1x1x64x1024, .f32⟩
  | .local _ .vmem, ⟨5, _⟩ => ⟨S1x1x64x1024, .f32⟩
  | .local _ .vmem, ⟨6, _⟩ => ⟨S1x1x64x1024, .f32⟩
  | .local _ .vmem, ⟨7, _⟩ => ⟨S1x1x64x1024, .f32⟩
  | _, _ => ⟨S8x8x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x8x64x32x32_S8x8x64x1024 : S8x8x64x32x32.ShapeCasts S8x8x64x1024
  inb_S1x1x64x1024_S1x1x64x1024_0_0_0_0 : ∀ a, (![0, 0, 0, 0] : Fin 4 → Nat) a + S1x1x64x1024.size a ≤ S1x1x64x1024.size a
  h_S1x1x64x1024 : 0 < S1x1x64x1024.numel
  shapeCasts_S1x1x64x1024_S64x1024 : S1x1x64x1024.ShapeCasts S64x1024
  bitsLt_bf16_f32 : FTy.bits .bf16 < FTy.bits .f32
  reduces_S1024x1024_S1024 : S1024x1024.Reduces [0] S1024
  shapeCasts_S1024_S1x1024 : S1024.ShapeCasts S1x1024
  broadcasts_S1x1024_S1024x1024 : S1x1024.Broadcasts S1024x1024
  shapeCasts_S64x1024_S1x1x64x1024 : S64x1024.ShapeCasts S1x1x64x1024
  shapeCasts_S8x8x64x1024_S8x8x64x32x32 : S8x8x64x1024.ShapeCasts S8x8x64x32x32
  dot_S64x1024_S64x1024_S1024x1024_0_0_1_1_n_n_wf : DotDims.WF S64x1024 S64x1024 S1024x1024 [0] [0] [1] [1] [] []
  dot_S64x1024_S1024x1024_S64x1024_1_0_0_1_n_n_wf : DotDims.WF S64x1024 S1024x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64x1024.size a ≤ S8x8x64x1024.size a
  hwx0_0 : ∀ i : grid0.Coords, EltTy.bits .f32 = 32 ∨ (Rect.block (s := S8x8x64x1024) S1x1x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x1024.size a ≤ S8x8x64x1024.size a
  hwx0_1 : ∀ i : grid0.Coords, EltTy.bits .f32 = 32 ∨ (Rect.block (s := S8x8x64x1024) S1x1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x1024.size a ≤ S8x8x64x1024.size a
  hwx0_2 : ∀ i : grid0.Coords, EltTy.bits .f32 = 32 ∨ (Rect.block (s := S8x8x64x1024) S1x1x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64x1024.size a ≤ S8x8x64x1024.size a
  hwx0_3 : ∀ i : grid0.Coords, EltTy.bits .f32 = 32 ∨ (Rect.block (s := S8x8x64x1024) S1x1x64x1024.size (cc0_transform_3 i) (hinb0_3 i)).WholeWords (EltTy.packing .f32)

variable [Facts₀]

def dot_S64x1024_S64x1024_S1024x1024_0_0_1_1_n_n : DotDims S64x1024 S64x1024 S1024x1024 where
  lhsContracting := [0]
  rhsContracting := [0]
  lhsNonContracting := [1]
  rhsNonContracting := [1]
  lhsBatch := []
  rhsBatch := []
  wf := dot_S64x1024_S64x1024_S1024x1024_0_0_1_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev win0_0 : Pipeline.Window sig grid0 :=
  Pipeline.Window.ofSpec (Memref.whole main_v1) S1x1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8x64x32x32 : Shape := ⟨5, ![8, 8, 64, 32, 32]⟩
abbrev S8x8x64x1024 : Shape := ⟨4, ![8, 8, 64, 1024]⟩
abbrev S8x8x1024x1024 : Shape := ⟨4, ![8, 8, 1024, 1024]⟩
abbrev S_ : Shape := ⟨0, ![]⟩
abbrev S8x8x1024 : Shape := ⟨3, ![8, 8, 1024]⟩
abbrev S8x8x1x1024 : Shape := ⟨4, ![8, 8, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x8x64x32x32, .f32⟩
  | .hbm, ⟨1, _⟩ => ⟨S8x8x64x32x32, .f32⟩
  | .hbm, ⟨2, _⟩ => ⟨S8x8x64x32x32, .f32⟩
  | .hbm, ⟨3, _⟩ => ⟨S8x8x64x1024, .f32⟩
  | .hbm, ⟨4, _⟩ => ⟨S8x8x64x1024, .f32⟩
  | .hbm, ⟨5, _⟩ => ⟨S8x8x64x1024, .f32⟩
  | .hbm, ⟨6, _⟩ => ⟨S8x8x1024x1024, .f32⟩
  | .hbm, ⟨7, _⟩ => ⟨S_, .f32⟩
  | .hbm, ⟨8, _⟩ => ⟨S8x8x1024, .f32⟩
  | .hbm, ⟨9, _⟩ => ⟨S_, .f32⟩
  | .hbm, ⟨10, _⟩ => ⟨S8x8x1024, .f32⟩
  | .hbm, ⟨11, _⟩ => ⟨S8x8x1024, .f32⟩
  | .hbm, ⟨12, _⟩ => ⟨S8x8x1x1024, .f32⟩
  | .hbm, ⟨13, _⟩ => ⟨S8x8x1024x1024, .f32⟩
  | .hbm, ⟨14, _⟩ => ⟨S8x8x1024x1024, .f32⟩
  | .hbm, ⟨15, _⟩ => ⟨S8x8x1024x1024, .f32⟩
  | .hbm, ⟨16, _⟩ => ⟨S_, .f32⟩
  | .hbm, ⟨17, _⟩ => ⟨S8x8x1024, .f32⟩
  | .hbm, ⟨18, _⟩ => ⟨S8x8x1x1024, .f32⟩
  | .hbm, ⟨19, _⟩ => ⟨S8x8x1024x1024, .f32⟩
  | .hbm, ⟨20, _⟩ => ⟨S8x8x1024x1024, .f32⟩
  | .hbm, ⟨21, _⟩ => ⟨S8x8x64x1024, .f32⟩
  | .hbm, ⟨22, _⟩ => ⟨S8x8x64x32x32, .f32⟩
  | _, _ => ⟨S8x8x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  shapeCasts_S8x8x64x32x32_S8x8x64x1024 : S8x8x64x32x32.ShapeCasts S8x8x64x1024
  reducesTo_S8x8x1024x1024_S8x8x1024_d2 : S8x8x1024x1024.ReducesTo [2] S8x8x1024
  h_S_ : 0 < S_.numel
  bcast_S_S8x8x1024 : S_.BroadcastsInDim S8x8x1024 (![] : Fin 0 → Fin S8x8x1024.rank)
  bcast_S8x8x1024_S8x8x1x1024_0_1_3 : S8x8x1024.BroadcastsInDim S8x8x1x1024 (![0, 1, 3] : Fin 3 → Fin S8x8x1x1024.rank)
  bcast_S8x8x1x1024_S8x8x1024x1024_0_1_2_3 : S8x8x1x1024.BroadcastsInDim S8x8x1024x1024 (![0, 1, 2, 3] : Fin 4 → Fin S8x8x1024x1024.rank)
  shapeCasts_S8x8x64x1024_S8x8x64x32x32 : S8x8x64x1024.ShapeCasts S8x8x64x32x32
  dot_S8x8x64x1024_S8x8x64x1024_S8x8x1024x1024_2_2_3_3_01_01_wf : DotDims.WF S8x8x64x1024 S8x8x64x1024 S8x8x1024x1024 [2] [2] [3] [3] [0, 1] [0, 1]
  dot_S8x8x64x1024_S8x8x1024x1024_S8x8x64x1024_3_2_2_3_01_01_wf : DotDims.WF S8x8x64x1024 S8x8x1024x1024 S8x8x64x1024 [3] [2] [2] [3] [0, 1] [0, 1]

variable [Facts₀]

def dot_S8x8x64x1024_S8x8x64x1024_S8x8x1024x1024_2_2_3_3_01_01 : DotDims S8x8x64x1024 S8x8x64x1024 S8x8x1024x1024 where
  lhsContracting := [2]
  rhsContracting := [2]
  lhsNonContracting := [3]
  rhsNonContracting := [3]
  lhsBatch := [0, 1]
  rhsBatch := [0, 1]
  wf := dot_S8x8x64x1024_S8x8x64x1024_S8x8x1024x1024_2_2_3_3_01_01_wf
def dot_S8x8x64x1024_S8x8x1024x1024_S8x8x64x1024_3_2_2_3_01_01 : DotDims S8x8x64x1024 S8x8x1024x1024 S8x8x64x1024 where
  lhsContracting := [3]
  rhsContracting := [2]
  lhsNonContracting := [2]
  rhsNonContracting := [3]
  lhsBatch := [0, 1]
  rhsBatch := [0, 1]
  wf := dot_S8x8x64x1024_S8x8x1024x1024_S8x8x64x1024_3_2_2_3_01_01_wf

class Facts : Prop extends Facts₀ where

variable [Facts]
-- ==== Proof.Attention.lean ====
/-
  One attention head over the extended reals, and its batched form.

  For channel-major blocks J, K, V : 64 x 1024 (channel c, token n) the head computes
    score[j, k]  = sum over c of J[c, j] * K[c, k]
    top[k]       = max (-inf) (max over j of score[j, k])          (the column's maximum, taken from -inf)
    e[j, k]      = exp (score[j, k] - top[k])
    total[k]     = sum over j of e[j, k]
    weight[j, k] = e[j, k] / total[k]                              (a softmax down each COLUMN k, over the query token j)
    out[c, k]    = sum over j of V[c, j] * weight[j, k].
  The batched form applies the head to the (p, b) slab of three [8, 8, 64, 1024] arrays.
  Every operation is the exact one on the extended reals; no law of arithmetic is used here, the
  definitions only fix ONE spelling that both programs are then read against.
-/
import Idealize.ShloMosaic.PureOps.Ideal
import Idealize.ShloMosaic.Lib.ValueIdx

noncomputable section

namespace Cert.Attn

open Idealize.ShloMosaic Idealize.ShloMosaic.ValueIdx

/-- The value of the f32 pattern of minus infinity: where both column maxima start. -/
abbrev negInf : EReal := Ideal.ofBits .f32 0xFF800000#32

/-- score[j, k]: the inner product of column j of J with column k of K, over the 64 channels. -/
def score (J K : Fin 64 → Fin 1024 → EReal) (j k : Fin 1024) : EReal := ∑ c : Fin 64, J c j * K c k

/-- The maximum of column k of a 1024 x 1024 table, folded from minus infinity, then joined with minus infinity once more. -/
def top (S : Fin 1024 → Fin 1024 → EReal) (k : Fin 1024) : EReal :=
  max negInf ((Finset.univ : Finset (Fin 1024)).fold max negInf fun j => S j k)

/-- The shifted exponential of an entry: exp of the entry less its column's maximum. -/
def shiftedExp (S : Fin 1024 → Fin 1024 → EReal) (j k : Fin 1024) : EReal := Ideal.exp (S j k - top S k)

/-- The column's total of shifted exponentials. -/
def total (S : Fin 1024 → Fin 1024 → EReal) (k : Fin 1024) : EReal := ∑ j : Fin 1024, shiftedExp S j k

/-- The softmax weight of row j within column k. -/
def weight (S : Fin 1024 → Fin 1024 → EReal) (j k : Fin 1024) : EReal := Ideal.div (shiftedExp S j k) (total S k)

/-- One head: the values V averaged with the column softmax of the scores of J against K. -/
def head (J K V : Fin 64 → Fin 1024 → EReal) (c : Fin 64) (k : Fin 1024) : EReal :=
  ∑ j : Fin 1024, V c j * weight (score J K) j k

/-- The head of slab (p, b) of three [8, 8, 64, 1024] arrays, at channel c and token k. -/
def headAt (J K V : (⟨4, ![8, 8, 64, 1024]⟩ : Shape).Idx → EReal) (p b : Fin 8) (c : Fin 64) (k : Fin 1024) : EReal :=
  head (fun c' j => J (ix4 p b c' j)) (fun c' k' => K (ix4 p b c' k')) (fun c' j => V (ix4 p b c' j)) c k

/-- The batched attention as one array: entry (p, b, c, k) is the head of slab (p, b) at (c, k). -/
def batched (J K V : (⟨4, ![8, 8, 64, 1024]⟩ : Shape).Idx → EReal) : (⟨4, ![8, 8, 64, 1024]⟩ : Shape).Idx → EReal :=
  fun i => headAt J K V (i 0) (i 1) (i 2) (i 3)

theorem batched_ix4 (J K V : (⟨4, ![8, 8, 64, 1024]⟩ : Shape).Idx → EReal) (p b : Fin 8) (c : Fin 64) (k : Fin 1024) :
    batched J K V (ix4 p b c k) = headAt J K V p b c k := rfl

end Cert.Attn

end
-- ==== Proof.KernelHead.lean ====
/-
  The kernel's body as one attention head.

  The body loads three [1, 1, 64, 1024] blocks (J, K, V of one (p, b) slab), forms the 1024 x 1024 scores by a
  matrix product contracting the 64 channels, takes each COLUMN's maximum from minus infinity (a reduction over
  the row axis, then one more maximum with minus infinity), subtracts it, exponentiates, sums each column, divides,
  and multiplies V by the weights, contracting the 1024 query tokens. Read at an index, with the changes of float
  format the identity on the extended reals, each stage is the matching stage of `Cert.Attn`; so the stored block
  at (0, 0, c, k) is `Cert.Attn.head` of the three loaded blocks at (c, k).
-/
import proofs.«146434_j9225589752302_1_alg».proof.Proof.Gen.KernelIdeal.Skeleton
import proofs.«146434_j9225589752302_1_alg».proof.Proof.Attention
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Head

open Cert.KernelIdeal Cert.KernelIdeal.Gen Idealize.ShloMosaic Idealize.ShloMosaic.ValueIdx Cert.Attn

/-! ## The layout steps -/

/-- A [1, 1, 64, 1024] block viewed as a 64 x 1024 matrix: entry (c, n) is the block's (0, 0, c, n). -/
theorem slab_apply (x : FVec Ideal S1x1x64x1024 .f32) (c : Fin 64) (n : Fin 1024) :
    shapeCast S64x1024 x shapeCasts_S1x1x64x1024_S64x1024 (ix2 c n) = x (ix4 (0 : Fin 1) (0 : Fin 1) c n) :=
  shapeCast_apply x shapeCasts_S1x1x64x1024_S64x1024 _ _ (by
    rw [Shape.rowMajor_val_four, Shape.rowMajor_val_two]
    show ((0 * 1 + 0) * 64 + c.val) * 1024 + n.val = c.val * 1024 + n.val
    omega)

/-- A 64 x 1024 matrix viewed as a [1, 1, 64, 1024] block: the block's (0, 0, c, n) is the matrix's (c, n). -/
theorem unslab_apply (y : FVec Ideal S64x1024 .f32) (c : Fin 64) (n : Fin 1024) :
    shapeCast S1x1x64x1024 y shapeCasts_S64x1024_S1x1x64x1024 (ix4 (0 : Fin 1) (0 : Fin 1) c n) = y (ix2 c n) :=
  shapeCast_apply y shapeCasts_S64x1024_S1x1x64x1024 _ _ (by
    rw [Shape.rowMajor_val_four, Shape.rowMajor_val_two]
    show c.val * 1024 + n.val = ((0 * 1 + 0) * 64 + c.val) * 1024 + n.val
    omega)

/-- A 1024-vector laid as one row and repeated down 1024 rows: entry (j, k) is the vector's k. -/
theorem rowRepeat_apply (v : FVec Ideal S1024 .f32) (j k : Fin 1024) :
    broadcastTo S1024x1024 (shapeCast S1x1024 v shapeCasts_S1024_S1x1024) broadcasts_S1x1024_S1024x1024 (ix2 j k) = v (ix1 k) :=
  (broadcastTo_1b_ab_apply _ broadcasts_S1x1024_S1024x1024 j k).trans (shapeCast_a_1a_apply v shapeCasts_S1024_S1x1024 0 k)

/-! ## The stages of the body, as printed -/

/-- The scores: the matrix product of the J block with the K block contracting the 64 channels, into zeros. -/
def kScore (x0 x1 : Vec Ideal S1x1x64x1024 .f32) : FVec Ideal S1024x1024 .f32 :=
  matmul dot_S64x1024_S64x1024_S1024x1024_0_0_1_1_n_n none
    (truncf .bf16 (shapeCast S64x1024 x0 shapeCasts_S1x1x64x1024_S64x1024) bitsLt_bf16_f32)
    (truncf .bf16 (shapeCast S64x1024 x1 shapeCasts_S1x1x64x1024_S64x1024) bitsLt_bf16_f32)
    (constant S1024x1024 .f32 0x00000000#32)

/-- Each column's maximum: the reduction over the row axis from minus infinity, joined with minus infinity. -/
def kTop (s : FVec Ideal S1024x1024 .f32) : FVec Ideal S1024 .f32 :=
  maximumf (broadcast S1024 (Scalar.ofBits (F := Ideal) .f32 0xFF800000#32))
    (multiReduction .maximumf [0] S1024 s 0xFF800000#32 reduces_S1024x1024_S1024 (.inl rfl) rfl)

/-- The exponentials of the scores less their column's maximum. -/
def kExp (s : FVec Ideal S1024x1024 .f32) : FVec Ideal S1024x1024 .f32 :=
  exp (subf s (broadcastTo S1024x1024 (shapeCast S1x1024 (kTop s) shapeCasts_S1024_S1x1024) broadcasts_S1x1024_S1024x1024))

/-- Each column's total of them. -/
def kTotal (s : FVec Ideal S1024x1024 .f32) : FVec Ideal S1024 .f32 :=
  multiReduction .add [0] S1024 (kExp s) 0x00000000#32 reduces_S1024x1024_S1024 (.inl rfl) rfl

/-- The weights: each exponential over its column's total. -/
def kWeight (s : FVec Ideal S1024x1024 .f32) : FVec Ideal S1024x1024 .f32 :=
  divf (kExp s) (broadcastTo S1024x1024 (shapeCast S1x1024 (kTotal s) shapeCasts_S1024_S1x1024) broadcasts_S1x1024_S1024x1024)

/-- The stored value is the V block times the weights of the scores, as a [1, 1, 64, 1024] block. -/
theorem pay_eq (x0 x1 x2 : Vec Ideal S1x1x64x1024 .f32) :
    k0_pay1 (F := Ideal) x0 x1 x2
      = shapeCast S1x1x64x1024
          (matmul dot_S64x1024_S1024x1024_S64x1024_1_0_0_1_n_n none
            (truncf .bf16 (shapeCast S64x1024 x2 shapeCasts_S1x1x64x1024_S64x1024) bitsLt_bf16_f32)
            (truncf .bf16 (kWeight (kScore x0 x1)) bitsLt_bf16_f32)
            (constant S64x1024 .f32 0x00000000#32))
          shapeCasts_S64x1024_S1x1x64x1024 := rfl

/-! ## The two products' operand indices, coordinate by coordinate -/

/-- First product (scores): the left operand's index at output (j, k) and channel q is (q, j). -/
theorem scoreL_0 (i : S1024x1024.Idx) (q : dot_S64x1024_S64x1024_S1024x1024_0_0_1_1_n_n.contr.Idx) : (dot_S64x1024_S64x1024_S1024x1024_0_0_1_1_n_n.lhsIdx i q 0).val = (q ⟨0, by decide⟩).val :=
  dot_S64x1024_S64x1024_S1024x1024_0_0_1_1_n_n.lhsIdx_val_of_single rfl i q
theorem scoreL_1 (i : S1024x1024.Idx) (q : dot_S64x1024_S64x1024_S1024x1024_0_0_1_1_n_n.contr.Idx) : (dot_S64x1024_S64x1024_S1024x1024_0_0_1_1_n_n.lhsIdx i q 1).val = (i 0).val := by
  unfold DotDims.lhsIdx
  rw [dif_neg (show ¬(1 : Fin S64x1024.rank) ∈ dot_S64x1024_S64x1024_S1024x1024_0_0_1_1_n_n.lhsBatch by decide), dif_pos (show (1 : Fin S64x1024.rank) ∈ dot_S64x1024_S64x1024_S1024x1024_0_0_1_1_n_n.lhsNonContracting by decide)]
  rfl
/-- and the right operand's is (q, k). -/
theorem scoreR_0 (i : S1024x1024.Idx) (q : dot_S64x1024_S64x1024_S1024x1024_0_0_1_1_n_n.contr.Idx) : (dot_S64x1024_S64x1024_S1024x1024_0_0_1_1_n_n.rhsIdx i q 0).val = (q ⟨0, by decide⟩).val :=
  dot_S64x1024_S64x1024_S1024x1024_0_0_1_1_n_n.rhsIdx_val_of_single rfl i q
theorem scoreR_1 (i : S1024x1024.Idx) (q : dot_S64x1024_S64x1024_S1024x1024_0_0_1_1_n_n.contr.Idx) : (dot_S64x1024_S64x1024_S1024x1024_0_0_1_1_n_n.rhsIdx i q 1).val = (i 1).val := by
  unfold DotDims.rhsIdx
  rw [dif_neg (show ¬(1 : Fin S64x1024.rank) ∈ dot_S64x1024_S64x1024_S1024x1024_0_0_1_1_n_n.rhsBatch by decide), dif_pos (show (1 : Fin S64x1024.rank) ∈ dot_S64x1024_S64x1024_S1024x1024_0_0_1_1_n_n.rhsNonContracting by decide)]
  rfl

/-- Second product (values times weights): the left operand's index at output (c, k) and query token q is (c, q). -/
theorem outL_0 (i : S64x1024.Idx) (q : dot_S64x1024_S1024x1024_S64x1024_1_0_0_1_n_n.contr.Idx) : (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
  rfl
theorem outL_1 (i : S64x1024.Idx) (q : dot_S64x1024_S1024x1024_S64x1024_1_0_0_1_n_n.contr.Idx) : (dot_S64x1024_S1024x1024_S64x1024_1_0_0_1_n_n.lhsIdx i q 1).val = (q ⟨0, by decide⟩).val :=
  dot_S64x1024_S1024x1024_S64x1024_1_0_0_1_n_n.lhsIdx_val_of_single rfl i q
/-- and the right operand's is (q, k). -/
theorem outR_0 (i : S64x1024.Idx) (q : dot_S64x1024_S1024x1024_S64x1024_1_0_0_1_n_n.contr.Idx) : (dot_S64x1024_S1024x1024_S64x1024_1_0_0_1_n_n.rhsIdx i q 0).val = (q ⟨0, by decide⟩).val :=
  dot_S64x1024_S1024x1024_S64x1024_1_0_0_1_n_n.rhsIdx_val_of_single rfl i q
theorem outR_1 (i : S64x1024.Idx) (q : dot_S64x1024_S1024x1024_S64x1024_1_0_0_1_n_n.contr.Idx) : (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
  rfl

/-! ## Each stage at an index -/

/-- The scores at (j, k): the sum over the channels of the J block's (c, j) times the K block's (c, k). -/
theorem kScore_apply (x0 x1 : Vec Ideal S1x1x64x1024 .f32) (j k : Fin 1024) :
    kScore x0 x1 (ix2 j k)
      = score (fun c n => x0 (ix4 (0 : Fin 1) (0 : Fin 1) c n)) (fun c n => x1 (ix4 (0 : Fin 1) (0 : Fin 1) c n)) j k := by
  unfold kScore score
  refine (Ideal.matmul_constant_zero_apply dot_S64x1024_S64x1024_S1024x1024_0_0_1_1_n_n none _ _ (ix2 j k)).trans ?_
  rw [← Equiv.sum_comp (contrEquiv1 dot_S64x1024_S64x1024_S1024x1024_0_0_1_1_n_n 64 rfl rfl).symm]
  refine Finset.sum_congr rfl fun c _ => ?_
  have hc := contrEquiv1_symm_val dot_S64x1024_S64x1024_S1024x1024_0_0_1_1_n_n 64 rfl rfl c
  have el : dot_S64x1024_S64x1024_S1024x1024_0_0_1_1_n_n.lhsIdx (ix2 j k) ((contrEquiv1 dot_S64x1024_S64x1024_S1024x1024_0_0_1_1_n_n 64 rfl rfl).symm c) = ix2 c j := funext fun a => Fin.ext (by
    match a with
    | ⟨0, _⟩ => exact (scoreL_0 _ _).trans hc
    | ⟨1, _⟩ => exact scoreL_1 _ _)
  have er : dot_S64x1024_S64x1024_S1024x1024_0_0_1_1_n_n.rhsIdx (ix2 j k) ((contrEquiv1 dot_S64x1024_S64x1024_S1024x1024_0_0_1_1_n_n 64 rfl rfl).symm c) = ix2 c k := funext fun a => Fin.ext (by
    match a with
    | ⟨0, _⟩ => exact (scoreR_0 _ _).trans hc
    | ⟨1, _⟩ => exact scoreR_1 _ _)
  rw [el, er]
  exact congrArg₂ (· * ·) (slab_apply x0 c j) (slab_apply x1 c k)

/-- The scalar unit's reading of a bit pattern is the vector unit's, whatever the pattern. -/
theorem scalarOfBits_eq (φ : FTy) (b : BitVec φ.bits) : Scalar.ofBits (F := Ideal) φ b = Ideal.ofBits φ b := rfl

/-- The column maxima at k: the maximum from minus infinity of the column's entries, joined with minus infinity. -/
theorem kTop_apply (s : FVec Ideal S1024x1024 .f32) (k : Fin 1024) :
    kTop s (ix1 k) = top (fun j k' => s (ix2 j k')) k := by
  unfold kTop top
  rw [maximumf_apply, broadcast_apply, scalarOfBits_eq]
  refine congrArg (max negInf) ?_
  refine (Ideal.multiReduction_maximumf_single s 0xFF800000#32 reduces_S1024x1024_S1024 (.inl rfl) rfl (ix1 k)).trans ?_
  rw [Ideal.ofBits_def]
  exact congrArg (fun f : Fin 1024 → EReal => (Finset.univ : Finset (Fin 1024)).fold max negInf f)
    (funext fun j => congrArg s (funext fun a => Fin.ext (by match a with | ⟨0, _⟩ => rfl | ⟨1, _⟩ => rfl)))

/-- The shifted exponentials at (j, k). -/
theorem kExp_apply (s : FVec Ideal S1024x1024 .f32) (j k : Fin 1024) :
    kExp s (ix2 j k) = shiftedExp (fun j' k' => s (ix2 j' k')) j k := by
  unfold kExp shiftedExp
  show Ideal.exp (s (ix2 j k)
      - broadcastTo S1024x1024 (shapeCast S1x1024 (kTop s) shapeCasts_S1024_S1x1024) broadcasts_S1x1024_S1024x1024 (ix2 j k)) = _
  rw [rowRepeat_apply, kTop_apply]

/-- The column totals at k. -/
theorem kTotal_apply (s : FVec Ideal S1024x1024 .f32) (k : Fin 1024) :
    kTotal s (ix1 k) = total (fun j' k' => s (ix2 j' k')) k := by
  unfold kTotal total
  refine (Ideal.multiReduction_add_single (kExp s) 0x00000000#32 reduces_S1024x1024_S1024 (.inl rfl) rfl (ix1 k)).trans ?_
  show (∑ j : Fin 1024, kExp s (reduces_S1024x1024_S1024.lift (ix1 k) j)) = ∑ j : Fin 1024, shiftedExp _ j k
  refine Finset.sum_congr rfl fun j _ => ?_
  have e : reduces_S1024x1024_S1024.lift (ix1 k) j = ix2 j k :=
    funext fun a => Fin.ext (by match a with | ⟨0, _⟩ => rfl | ⟨1, _⟩ => rfl)
  rw [e, kExp_apply]

/-- The weights at (j, k). -/
theorem kWeight_apply (s : FVec Ideal S1024x1024 .f32) (j k : Fin 1024) :
    kWeight s (ix2 j k) = weight (fun j' k' => s (ix2 j' k')) j k := by
  unfold kWeight weight
  show Ideal.div (kExp s (ix2 j k))
      (broadcastTo S1024x1024 (shapeCast S1x1024 (kTotal s) shapeCasts_S1024_S1x1024) broadcasts_S1x1024_S1024x1024 (ix2 j k)) = _
  rw [rowRepeat_apply, kExp_apply, kTotal_apply]

/-! ## The stored block -/

/-- The value the body stores, at (0, 0, c, k), is the attention head of the three loaded blocks at (c, k). -/
theorem pay_apply (x0 x1 x2 : Vec Ideal S1x1x64x1024 .f32) (c : Fin 64) (k : Fin 1024) :
    k0_pay1 (F := Ideal) x0 x1 x2 (ix4 (0 : Fin 1) (0 : Fin 1) c k)
      = head (fun c' n => x0 (ix4 (0 : Fin 1) (0 : Fin 1) c' n)) (fun c' n => x1 (ix4 (0 : Fin 1) (0 : Fin 1) c' n))
          (fun c' n => x2 (ix4 (0 : Fin 1) (0 : Fin 1) c' n)) c k := by
  rw [pay_eq]
  refine (unslab_apply _ c k).trans ?_
  refine (Ideal.matmul_constant_zero_apply dot_S64x1024_S1024x1024_S64x1024_1_0_0_1_n_n none _ _ (ix2 c k)).trans ?_
  rw [← Equiv.sum_comp (contrEquiv1 dot_S64x1024_S1024x1024_S64x1024_1_0_0_1_n_n 1024 rfl rfl).symm]
  unfold head
  refine Finset.sum_congr rfl fun j _ => ?_
  have hj := contrEquiv1_symm_val dot_S64x1024_S1024x1024_S64x1024_1_0_0_1_n_n 1024 rfl rfl j
  have el : dot_S64x1024_S1024x1024_S64x1024_1_0_0_1_n_n.lhsIdx (ix2 c k) ((contrEquiv1 dot_S64x1024_S1024x1024_S64x1024_1_0_0_1_n_n 1024 rfl rfl).symm j) = ix2 c j := funext fun a => Fin.ext (by
    match a with
    | ⟨0, _⟩ => exact outL_0 _ _
    | ⟨1, _⟩ => exact (outL_1 _ _).trans hj)
  have er : dot_S64x1024_S1024x1024_S64x1024_1_0_0_1_n_n.rhsIdx (ix2 c k) ((contrEquiv1 dot_S64x1024_S1024x1024_S64x1024_1_0_0_1_n_n 1024 rfl rfl).symm j) = ix2 j k := funext fun a => Fin.ext (by
    match a with
    | ⟨0, _⟩ => exact (outR_0 _ _).trans hj
    | ⟨1, _⟩ => exact outR_1 _ _)
  rw [el, er]
  have hs : (fun j' k' => kScore x0 x1 (ix2 j' k'))
      = score (fun c' n => x0 (ix4 (0 : Fin 1) (0 : Fin 1) c' n)) (fun c' n => x1 (ix4 (0 : Fin 1) (0 : Fin 1) c' n)) :=
    funext fun j' => funext fun k' => kScore_apply x0 x1 j' k'
  show shapeCast S64x1024 x2 shapeCasts_S1x1x64x1024_S64x1024 (ix2 c j) * kWeight (kScore x0 x1) (ix2 j k) = _
  rw [slab_apply, kWeight_apply, hs]

end Cert.KernelIdeal.Head

end
-- ==== Proof.KernelArray.lean ====
/-
  From the kernel's blocks to its result array, and the kernel program's run.

  The grid has one point per slab (p, b) of the [8, 8, 64, 1024] arrays; at a point every window's block is the
  whole (p, b) slab of its array (block index (p, b, 0, 0), decided once over the 64 points). The J, K, V arrays
  the region finds are the host's reshapes of the three arguments. What a point writes back is therefore the
  attention head of slab (p, b) of those arrays, which is the (p, b) slab of ONE array, `Cert.Attn.batched` of
  them; the 64 slabs cover the output array, so it ends holding that array, and the host's reshape after the
  region turns it into the program's [8, 8, 64, 32, 32] result.
-/
import proofs.«146434_j9225589752302_1_alg».proof.Proof.Gen.KernelIdeal.Frame
import proofs.«146434_j9225589752302_1_alg».proof.Proof.KernelHead
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Slabs

open Cert.KernelIdeal Cert.KernelIdeal.Gen Idealize.ShloMosaic.ValueIdx Cert.Attn

variable (m : (ℓ : Loc nD τ sig) → Buf (Elt Ideal) ℓ) (ρ : Dev nD → PrngReg)

/-! ## The grid's blocks -/

theorem zeroOffsets : (![0, 0, 0, 0] : Fin 4 → Nat) = fun _ => 0 := funext fun a => by fin_cases a <;> rfl

/-- The printed index maps, decided once over the 64 grid points: at point t every window's block index is
    (p, b, 0, 0) for the same (p, b), both below 8. -/
theorem blockIndex : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (2 : Fin 4) = 0 ∧ win0_3.index t (3 : Fin 4) = 0
    ∧ win0_3.index t (0 : Fin 4) < 8 ∧ win0_3.index t (1 : Fin 4) < 8 :=
  (by decide +kernel : ∀ t : Fin grid0.N, _)

/-- Every slab (p, b) is some grid point's. -/
theorem slabOnto : ∀ (q0 q1 : Fin 8), ∃ t : Fin cfg0.N, win0_3.index t = ![q0.val, q1.val, 0, 0] :=
  (by decide +kernel : ∀ (q0 q1 : Fin 8), ∃ t : Fin grid0.N, win0_3.index t = ![q0.val, q1.val, 0, 0])

/-- The J window's block at point t, at (0, 0, c, n), is the reshaped J array at any index with coordinates
    (the point's p, the point's b, c, n). -/
theorem blockJ_apply (c : Dev nD) (t : Fin cfg0.N) (c' : Fin 64) (n : Fin 1024) (i : S8x8x64x1024.Idx)
    (h0 : (i 0).val = win0_3.index t (0 : Fin 4)) (h1 : (i 1).val = win0_3.index t (1 : Fin 4))
    (h2 : (i 2).val = c'.val) (h3 : (i 3).val = n.val) :
    (iblk m c 0 t : Vec Ideal S1x1x64x1024 .f32) (ix4 (0 : Fin 1) (0 : Fin 1) c' n) = V m c main_v1 i := by
  obtain ⟨e0, e1, e2, e3, -⟩ := blockIndex t
  unfold iblk
  rw [View.read_apply]
  show V m c main_v1 _ = V m c main_v1 i
  congr 1
  funext a
  apply Fin.ext
  match a with
  | ⟨0, _⟩ => show win0_0.index t (0 : Fin 4) * 1 + 1 * 0 = (i 0).val; omega
  | ⟨1, _⟩ => show win0_0.index t (1 : Fin 4) * 1 + 1 * 0 = (i 1).val; omega
  | ⟨2, _⟩ => show win0_0.index t (2 : Fin 4) * 64 + 1 * c'.val = (i 2).val; omega
  | ⟨3, _⟩ => show win0_0.index t (3 : Fin 4) * 1024 + 1 * n.val = (i 3).val; omega

/-- The K window's block at point t, likewise, in the reshaped K array. -/
theorem blockK_apply (c : Dev nD) (t : Fin cfg0.N) (c' : Fin 64) (n : Fin 1024) (i : S8x8x64x1024.Idx)
    (h0 : (i 0).val = win0_3.index t (0 : Fin 4)) (h1 : (i 1).val = win0_3.index t (1 : Fin 4))
    (h2 : (i 2).val = c'.val) (h3 : (i 3).val = n.val) :
    (iblk m c 1 t : Vec Ideal S1x1x64x1024 .f32) (ix4 (0 : Fin 1) (0 : Fin 1) c' n) = V m c main_v0 i := by
  obtain ⟨-, -, -, -, e0, e1, e2, e3, -⟩ := blockIndex t
  unfold iblk
  rw [View.read_apply]
  show V m c main_v0 _ = V m c main_v0 i
  congr 1
  funext a
  apply Fin.ext
  match a with
  | ⟨0, _⟩ => show win0_1.index t (0 : Fin 4) * 1 + 1 * 0 = (i 0).val; omega
  | ⟨1, _⟩ => show win0_1.index t (1 : Fin 4) * 1 + 1 * 0 = (i 1).val; omega
  | ⟨2, _⟩ => show win0_1.index t (2 : Fin 4) * 64 + 1 * c'.val = (i 2).val; omega
  | ⟨3, _⟩ => show win0_1.index t (3 : Fin 4) * 1024 + 1 * n.val = (i 3).val; omega

/-- The V window's block at point t, likewise, in the reshaped V array. -/
theorem blockV_apply (c : Dev nD) (t : Fin cfg0.N) (c' : Fin 64) (n : Fin 1024) (i : S8x8x64x1024.Idx)
    (h0 : (i 0).val = win0_3.index t (0 : Fin 4)) (h1 : (i 1).val = win0_3.index t (1 : Fin 4))
    (h2 : (i 2).val = c'.val) (h3 : (i 3).val = n.val) :
    (iblk m c 2 t : Vec Ideal S1x1x64x1024 .f32) (ix4 (0 : Fin 1) (0 : Fin 1) c' n) = V m c main_v2 i := by
  obtain ⟨-, -, -, -, -, -, -, -, e0, e1, e2, e3, -⟩ := blockIndex t
  unfold iblk
  rw [View.read_apply]
  show V m c main_v2 _ = V m c main_v2 i
  congr 1
  funext a
  apply Fin.ext
  match a with
  | ⟨0, _⟩ => show win0_2.index t (0 : Fin 4) * 1 + 1 * 0 = (i 0).val; omega
  | ⟨1, _⟩ => show win0_2.index t (1 : Fin 4) * 1 + 1 * 0 = (i 1).val; omega
  | ⟨2, _⟩ => show win0_2.index t (2 : Fin 4) * 64 + 1 * c'.val = (i 2).val; omega
  | ⟨3, _⟩ => show win0_2.index t (3 : Fin 4) * 1024 + 1 * n.val = (i 3).val; omega

/-! ## The cover, and the arrays the region finds -/

/-- An index of the [8, 8, 64, 1024] result array is in point t's block iff each coordinate is in the block's range on its axis. -/
theorem mem_block (t : Fin cfg0.N) (i : S8x8x64x1024.Idx) :
    i ∈ ((cfg0.win 3).blk t).view.set ↔ ∀ a : Fin 4, win0_3.index t a * S1x1x64x1024.size a ≤ (i a).val
      ∧ (i a).val < win0_3.index t a * S1x1x64x1024.size a + S1x1x64x1024.size a := by
  show i ∈ ((View.whole main_v3).slice (win0_3.rect t)).set ↔ _
  rw [View.set_slice_whole, Rect.mem_set_unit]
  exact Iff.rfl

/-- Every index (p, b, c, k) of the result array lies in the block of the point whose slab is (p, b); every point writes back. -/
theorem covered (i : S8x8x64x1024.Idx) :
    ∃ t : Fin cfg0.N, (cfg0.win 3).flush t = true ∧ i ∈ ((cfg0.win 3).blk t).view.set := by
  have h0 : (i 0).val < 8 := (i 0).isLt
  have h1 : (i 1).val < 8 := (i 1).isLt
  have h2 : (i 2).val < 64 := (i 2).isLt
  have h3 : (i 3).val < 1024 := (i 3).isLt
  obtain ⟨t, ht⟩ := slabOnto ⟨(i 0).val, h0⟩ ⟨(i 1).val, h1⟩
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = 0 := congrFun ht 3
  refine ⟨t, flush0_3 t, ?_⟩
  rw [mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 64 ≤ (i 2).val ∧ (i 2).val < win0_3.index t (2 : Fin 4) * 64 + 64; omega
  | ⟨3, _⟩ => show win0_3.index t (3 : Fin 4) * 1024 ≤ (i 3).val ∧ (i 3).val < win0_3.index t (3 : Fin 4) * 1024 + 1024; omega

/-- The arrays the region finds: each the host's reshape of an argument to [8, 8, 64, 1024]. -/
theorem entryK (c : Dev nD) : (V m c main_v0 : S8x8x64x1024.Idx → EReal)
    = shapeCast S8x8x64x1024 (m ((c : Thread nD τ).loc main_arg0)) shapeCasts_S8x8x64x32x32_S8x8x64x1024 := by
  show StableHlo.after hostOps0 (fun b => m (c, b)) (Proc.devRef .tc main_v0) = _
  after_results
  rfl
theorem entryJ (c : Dev nD) : (V m c main_v1 : S8x8x64x1024.Idx → EReal)
    = shapeCast S8x8x64x1024 (m ((c : Thread nD τ).loc main_arg1)) shapeCasts_S8x8x64x32x32_S8x8x64x1024 := by
  show StableHlo.after hostOps0 (fun b => m (c, b)) (Proc.devRef .tc main_v1) = _
  after_results
  rfl
theorem entryV (c : Dev nD) : (V m c main_v2 : S8x8x64x1024.Idx → EReal)
    = shapeCast S8x8x64x1024 (m ((c : Thread nD τ).loc main_arg2)) shapeCasts_S8x8x64x32x32_S8x8x64x1024 := by
  show StableHlo.after hostOps0 (fun b => m (c, b)) (Proc.devRef .tc main_v2) = _
  after_results
  rfl

/-! ## One grid point -/

/-- If three blocks are slab (P, B) of three arrays J, K, V, then the stored block, at y, is the batched attention of
    J, K, V at any index with coordinates (P, B, y's channel, y's token). -/
theorem point_eq (J K V : S8x8x64x1024.Idx → EReal) (x0 x1 x2 : Vec Ideal S1x1x64x1024 .f32) (P B : Fin 8)
    (hJ : ∀ (c' : Fin 64) (n : Fin 1024), x0 (ix4 (0 : Fin 1) (0 : Fin 1) c' n) = J (ix4 P B c' n))
    (hK : ∀ (c' : Fin 64) (n : Fin 1024), x1 (ix4 (0 : Fin 1) (0 : Fin 1) c' n) = K (ix4 P B c' n))
    (hV : ∀ (c' : Fin 64) (n : Fin 1024), x2 (ix4 (0 : Fin 1) (0 : Fin 1) c' n) = V (ix4 P B c' n))
    (y : S1x1x64x1024.Idx) (i : S8x8x64x1024.Idx)
    (hi0 : (i 0).val = P.val) (hi1 : (i 1).val = B.val) (hi2 : (i 2).val = (y 2).val) (hi3 : (i 3).val = (y 3).val) :
    k0_pay1 (F := Ideal) x0 x1 x2 y = batched J K V i := by
  obtain ⟨u0, u1, c', n, rfl⟩ : ∃ (u0 u1 : Fin 1) (c' : Fin 64) (n : Fin 1024), y = ix4 u0 u1 c' n :=
    ⟨y 0, y 1, y 2, y 3, eq_ix4 y⟩
  obtain rfl : u0 = 0 := Fin.ext (by have := u0.isLt; omega)
  obtain rfl : u1 = 0 := Fin.ext (by have := u1.isLt; omega)
  obtain rfl : i = ix4 P B c' n := funext fun a => Fin.ext (by
    match a with
    | ⟨0, _⟩ => exact hi0
    | ⟨1, _⟩ => exact hi1
    | ⟨2, _⟩ => exact hi2
    | ⟨3, _⟩ => exact hi3)
  rw [Cert.KernelIdeal.Head.pay_apply, batched_ix4]
  unfold headAt
  rw [show (fun c' n => x0 (ix4 (0 : Fin 1) (0 : Fin 1) c' n)) = fun c' n => J (ix4 P B c' n) from
        funext fun c' => funext fun n => hJ c' n,
      show (fun c' n => x1 (ix4 (0 : Fin 1) (0 : Fin 1) c' n)) = fun c' n => K (ix4 P B c' n) from
        funext fun c' => funext fun n => hK c' n,
      show (fun c' n => x2 (ix4 (0 : Fin 1) (0 : Fin 1) c' n)) = fun c' n => V (ix4 P B c' n) from
        funext fun c' => funext fun n => hV c' n]

/-! ## The output array after the run -/

/-- The array the output window ends holding: the batched attention of the J, K, V arrays as the region finds them. -/
abbrev result (c : Dev nD) : S8x8x64x1024.Idx → EReal := batched (V m c main_v1) (V m c main_v0) (V m c main_v2)

/-- What point t writes back is block t of that array. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero zeroOffsets]
  simp only [View.ld_unit_zero (S := S1x1x64x1024) zeroOffsets]
  obtain ⟨-, -, -, -, -, -, -, -, -, -, -, -, e2, e3, lt0, lt1⟩ := blockIndex t
  funext y
  have hy0 : (y 0).val < 1 := (y 0).isLt
  have hy1 : (y 1).val < 1 := (y 1).isLt
  show k0_pay1 (F := Ideal) (iblk m c 0 t) (iblk m c 1 t) (iblk m c 2 t) y
    = result m c (((cfg0.win 3).blk t).view.emb y)
  refine point_eq (V m c main_v1) (V m c main_v0) (V m c main_v2) (iblk m c 0 t) (iblk m c 1 t) (iblk m c 2 t)
    ⟨win0_3.index t (0 : Fin 4), lt0⟩ ⟨win0_3.index t (1 : Fin 4), lt1⟩
    (fun c' n => blockJ_apply m c t c' n _ rfl rfl rfl rfl)
    (fun c' n => blockK_apply m c t c' n _ rfl rfl rfl rfl)
    (fun c' n => blockV_apply m c t c' n _ rfl rfl rfl rfl)
    y (((cfg0.win 3).blk t).view.emb y) ?_ ?_ ?_ ?_
  · show win0_3.index t (0 : Fin 4) * 1 + 1 * (y 0).val = win0_3.index t (0 : Fin 4); omega
  · show win0_3.index t (1 : Fin 4) * 1 + 1 * (y 1).val = win0_3.index t (1 : Fin 4); omega
  · show win0_3.index t (2 : Fin 4) * 64 + 1 * (y 2).val = (y 2).val; omega
  · show win0_3.index t (3 : Fin 4) * 1024 + 1 * (y 3).val = (y 3).val; omega

/-- The 64 slabs cover the output array, so it ends holding `result`. -/
theorem final (c : Dev nD) : (dats m 0 c).arrAt 3 cfg0.N = result m c :=
  (dats m 0 c).arrAt_eq_of_cover 3 (result m c) (fun t _ => flushed_eq m c t) covered

/-! ## The program's result -/

/-- The kernel program's result: the batched attention of the three arguments reshaped to [8, 8, 64, 1024]
    (J is the second argument, K the first, V the third), reshaped to [8, 8, 64, 32, 32]. -/
def answer (c : Dev nD) : S8x8x64x32x32.Idx → EReal :=
  shapeCast S8x8x64x32x32
    (batched
      (shapeCast S8x8x64x1024 (m ((c : Thread nD τ).loc main_arg1)) shapeCasts_S8x8x64x32x32_S8x8x64x1024)
      (shapeCast S8x8x64x1024 (m ((c : Thread nD τ).loc main_arg0)) shapeCasts_S8x8x64x32x32_S8x8x64x1024)
      (shapeCast S8x8x64x1024 (m ((c : Thread nD τ).loc main_arg2)) shapeCasts_S8x8x64x32x32_S8x8x64x1024))
    shapeCasts_S8x8x64x1024_S8x8x64x32x32

theorem result_eq (c : Dev nD) : result m c
    = batched
      (shapeCast S8x8x64x1024 (m ((c : Thread nD τ).loc main_arg1)) shapeCasts_S8x8x64x32x32_S8x8x64x1024)
      (shapeCast S8x8x64x1024 (m ((c : Thread nD τ).loc main_arg0)) shapeCasts_S8x8x64x32x32_S8x8x64x1024)
      (shapeCast S8x8x64x1024 (m ((c : Thread nD τ).loc main_arg2)) shapeCasts_S8x8x64x32x32_S8x8x64x1024) := by
  unfold result
  rw [entryJ, entryK, entryV]

/-- The host line after the region reshapes what the region left in its output array. -/
theorem tail_eq (c : Dev nD) : Pipeline.afterTail₀ cfgs (dats m) 0 (V0 m) [hostOps1] c main_v4 = answer m c := by
  have hw := (Pipeline.withArrays_arr spec0 launch0.win.arr_inj c (V0 m c) (fun w => (dats m 0 c).arrAt w cfg0.N) 3).trans
    ((final m c).trans (result_eq m c))
  unfold Pipeline.afterTail₀
  show StableHlo.after hostOps1 _ (Proc.devRef .tc main_v4) = _
  after_results
  exact congrArg (fun A : S8x8x64x1024.Idx → EReal => shapeCast S8x8x64x32x32 A shapeCasts_S8x8x64x1024_S8x8x64x32x32) hw

/-- The kernel program's run, read: the result at `answer`, the arguments unchanged. -/
theorem run : θ_run defs (onTc (τ := τ) (main (F := Ideal))) ⟨m, fun _ => 0, ρ⟩ fun r => ∀ c : Dev nD,
      r.2.mem ((c.tc : Thread nD τ).loc main_v4) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Slabs

end
-- ==== Proof.RefHead.lean ====
/-
  The reference as batched attention heads.

  The reference reshapes K, J, V to [8, 8, 64, 1024], takes the batched product of J with K contracting the
  channels (scores[p, b, j, k]), the maximum over the query axis j from minus infinity (joined once more with minus
  infinity), subtracts it, exponentiates, sums over j from zero, divides, and takes the batched product of V with the
  weights contracting j. Read at (p, b, ., .), each stage is the matching stage of `Cert.Attn` for slab (p, b) of
  the reshaped arrays; the zero the sum starts from is the extended real 0. So the product before the final reshape
  is `Cert.Attn.batched` of the three reshaped arrays.
-/
import proofs.«146434_j9225589752302_1_alg».proof.Proof.Gen.ReferenceIdeal.Read
import proofs.«146434_j9225589752302_1_alg».proof.Proof.Attention
import Idealize.ShloMosaic.PureOps.Ideal.Laws
import Idealize.ShloMosaic.Lib.ValueIdx

noncomputable section

namespace Cert.ReferenceIdeal.Head

open Cert.ReferenceIdeal Cert.ReferenceIdeal.Gen Cert.ReferenceIdeal.Read Idealize.ShloMosaic Idealize.ShloMosaic.ValueIdx Cert.Attn

/-- The scores of slab (p, b) at (j, k): the sum over the channels of reshaped J at (p, b, c, j) times reshaped K at (p, b, c, k). -/
theorem score_at (x0 x1 : (⟨S8x8x64x32x32, .f32⟩ : BufTy).Contents (Elt Ideal)) (p b : Fin 8) (j k : Fin 1024) :
    val_main_v3 (F := Ideal) x0 x1 (ix4 p b j k)
      = score (fun c n => val_main_v1 (F := Ideal) x1 (ix4 p b c n)) (fun c n => val_main_v0 (F := Ideal) x0 (ix4 p b c n)) j k := by
  rw [val_main_v3_apply]
  unfold score
  refine Finset.sum_congr rfl fun c _ => ?_
  have el : lidx_main_v3 (ix4 p b j k) c = ix4 p b c j := funext fun a => Fin.ext (by match a with | ⟨0, _⟩ => rfl | ⟨1, _⟩ => rfl | ⟨2, _⟩ => rfl | ⟨3, _⟩ => rfl)
  have er : ridx_main_v3 (ix4 p b j k) c = ix4 p b c k := funext fun a => Fin.ext (by match a with | ⟨0, _⟩ => rfl | ⟨1, _⟩ => rfl | ⟨2, _⟩ => rfl | ⟨3, _⟩ => rfl)
  rw [el, er]

/-- The column maxima of slab (p, b) at k: the host's maximum over the query axis from minus infinity, as the fold of
    `max` over that axis's 1024 coordinates, joined with minus infinity. -/
theorem top_at (x0 x1 : (⟨S8x8x64x32x32, .f32⟩ : BufTy).Contents (Elt Ideal)) (p b : Fin 8) (k : Fin 1024) :
    val_main_v6 (F := Ideal) x0 x1 (ix3 p b k) = top (fun j' k' => val_main_v3 (F := Ideal) x0 x1 (ix4 p b j' k')) k := by
  rw [val_main_v6_apply, val_main_v5_apply, val_main_cst_0_apply]
  unfold top val_main_v4
  show max (Ideal.ofBits .f32 0xFF800000#32)
      (Host.reduce FloatOps.maximumf (val_main_v3 (F := Ideal) x0 x1) (val_main_cst (F := Ideal)) reducesTo_S8x8x1024x1024_S8x8x1024_d2 h_S_ (ix3 p b k)) = _
  refine congrArg (max negInf) ?_
  refine (Host.reduce_eq_fold_single (FloatOps.maximumf (F := Ideal) (φ := .f32)) (val_main_v3 (F := Ideal) x0 x1) (val_main_cst (F := Ideal))
    reducesTo_S8x8x1024x1024_S8x8x1024_d2 (by decide : Shape.Reduces S8x8x1024x1024 [2] S8x8x1024) h_S_ (ix3 p b k)).trans ?_
  exact congrArg (fun f : Fin 1024 → EReal => (Finset.univ : Finset (Fin 1024)).fold max negInf f)
    (funext fun j => congrArg (val_main_v3 (F := Ideal) x0 x1) (funext fun a => Fin.ext (by match a with | ⟨0, _⟩ => rfl | ⟨1, _⟩ => rfl | ⟨2, _⟩ => rfl | ⟨3, _⟩ => rfl)))

/-- The shifted exponentials of slab (p, b) at (j, k). -/
theorem exp_at (x0 x1 : (⟨S8x8x64x32x32, .f32⟩ : BufTy).Contents (Elt Ideal)) (p b : Fin 8) (j k : Fin 1024) :
    val_main_v10 (F := Ideal) x0 x1 (ix4 p b j k) = shiftedExp (fun j' k' => val_main_v3 (F := Ideal) x0 x1 (ix4 p b j' k')) j k := by
  rw [val_main_v10_apply, val_main_v9_apply, val_main_v8_apply, val_main_v7_apply]
  have e : idx_main_v7 (idx_main_v8 (ix4 p b j k)) = ix3 p b k := funext fun a => Fin.ext (by match a with | ⟨0, _⟩ => rfl | ⟨1, _⟩ => rfl | ⟨2, _⟩ => rfl)
  rw [e, top_at]
  rfl

/-- The column totals of slab (p, b) at k: the host's sum over the query axis from zero. -/
theorem total_at (x0 x1 : (⟨S8x8x64x32x32, .f32⟩ : BufTy).Contents (Elt Ideal)) (p b : Fin 8) (k : Fin 1024) :
    val_main_v11 (F := Ideal) x0 x1 (ix3 p b k) = total (fun j' k' => val_main_v3 (F := Ideal) x0 x1 (ix4 p b j' k')) k := by
  rw [val_main_v11_apply, val_main_cst_1_apply]
  unfold total
  show Ideal.ofBits .f32 0x00000000#32 + _ = _
  rw [Ideal.ofBits_zero_f32, zero_add]
  refine Finset.sum_congr rfl fun j _ => ?_
  have e : idx_main_v11 (ix3 p b k) j = ix4 p b j k := funext fun a => Fin.ext (by match a with | ⟨0, _⟩ => rfl | ⟨1, _⟩ => rfl | ⟨2, _⟩ => rfl | ⟨3, _⟩ => rfl)
  rw [e, exp_at]

/-- The weights of slab (p, b) at (j, k). -/
theorem weight_at (x0 x1 : (⟨S8x8x64x32x32, .f32⟩ : BufTy).Contents (Elt Ideal)) (p b : Fin 8) (j k : Fin 1024) :
    val_main_v14 (F := Ideal) x0 x1 (ix4 p b j k) = weight (fun j' k' => val_main_v3 (F := Ideal) x0 x1 (ix4 p b j' k')) j k := by
  rw [val_main_v14_apply, val_main_v13_apply, val_main_v12_apply]
  have e : idx_main_v12 (idx_main_v13 (ix4 p b j k)) = ix3 p b k := funext fun a => Fin.ext (by match a with | ⟨0, _⟩ => rfl | ⟨1, _⟩ => rfl | ⟨2, _⟩ => rfl)
  rw [e, exp_at, total_at]
  rfl

/-- The product of reshaped V with the weights, at (p, b, c, k): the head of slab (p, b) at (c, k). -/
theorem out_at (x0 x1 x2 : (⟨S8x8x64x32x32, .f32⟩ : BufTy).Contents (Elt Ideal)) (p b : Fin 8) (c : Fin 64) (k : Fin 1024) :
    val_main_v15 (F := Ideal) x0 x1 x2 (ix4 p b c k)
      = headAt (val_main_v1 (F := Ideal) x1) (val_main_v0 (F := Ideal) x0) (val_main_v2 (F := Ideal) x2) p b c k := by
  rw [val_main_v15_apply]
  unfold headAt head
  refine Finset.sum_congr rfl fun j _ => ?_
  have el : lidx_main_v15 (ix4 p b c k) j = ix4 p b c j := funext fun a => Fin.ext (by match a with | ⟨0, _⟩ => rfl | ⟨1, _⟩ => rfl | ⟨2, _⟩ => rfl | ⟨3, _⟩ => rfl)
  have er : ridx_main_v15 (ix4 p b c k) j = ix4 p b j k := funext fun a => Fin.ext (by match a with | ⟨0, _⟩ => rfl | ⟨1, _⟩ => rfl | ⟨2, _⟩ => rfl | ⟨3, _⟩ => rfl)
  have hs : (fun j' k' => val_main_v3 (F := Ideal) x0 x1 (ix4 p b j' k'))
      = score (fun c' n => val_main_v1 (F := Ideal) x1 (ix4 p b c' n)) (fun c' n => val_main_v0 (F := Ideal) x0 (ix4 p b c' n)) :=
    funext fun j' => funext fun k' => score_at x0 x1 p b j' k'
  rw [el, er, weight_at, hs]

/-- The reference's array before its final reshape is the batched attention of the three reshaped arguments. -/
theorem stage_eq (x0 x1 x2 : (⟨S8x8x64x32x32, .f32⟩ : BufTy).Contents (Elt Ideal)) :
    val_main_v15 (F := Ideal) x0 x1 x2
      = batched (val_main_v1 (F := Ideal) x1) (val_main_v0 (F := Ideal) x0) (val_main_v2 (F := Ideal) x2) :=
  funext fun i => by
    obtain ⟨p, b, c, k, rfl⟩ : ∃ (p b : Fin 8) (c : Fin 64) (k : Fin 1024), i = ix4 p b c k := ⟨i 0, i 1, i 2, i 3, eq_ix4 i⟩
    rw [batched_ix4]
    exact out_at x0 x1 x2 p b c k

end Cert.ReferenceIdeal.Head

end
-- ==== Proof.lean ====
/-
  The certificate's proof.

  The kernel computes, for each of the 64 slabs (p, b) of three [8, 8, 64, 32, 32] arguments reshaped to
  [8, 8, 64, 1024], one attention head: scores = J^T K over the 64 channels, a softmax down each column (over the
  query token), and V times the weights. The reference computes the same with batched products over (p, b). At the
  ideal values a change of float format is the identity, a matrix product into zeros and the host's product are the
  same finite sum, a maximum over an axis from minus infinity is the same fold on both sides, and a sum over an axis
  from zero is the same finite sum; the two programs apply the same operations to the same numbers in the same
  order, so no law of arithmetic and no finiteness of the inputs is needed: both results are ONE array
  (`Cert.KernelIdeal.Slabs.answer`), the batched attention of the reshaped arguments, reshaped back.

  The frames of the two kernel programs are the generated ones; the reference's frame is its generated run with
  the result dropped; the idealization rewrote no operation, so its claim is `True`.
-/
import proofs.«146434_j9225589752302_1_alg».proof.Defs
import proofs.«146434_j9225589752302_1_alg».proof.Proof.Gen.Kernel
import proofs.«146434_j9225589752302_1_alg».proof.Proof.Gen.Kernel.Skeleton
import proofs.«146434_j9225589752302_1_alg».proof.Proof.Gen.Kernel.Launch
import proofs.«146434_j9225589752302_1_alg».proof.Proof.Gen.Kernel.Points
import proofs.«146434_j9225589752302_1_alg».proof.Proof.Gen.Kernel.Frame
import proofs.«146434_j9225589752302_1_alg».proof.Proof.Gen.KernelIdeal
import proofs.«146434_j9225589752302_1_alg».proof.Proof.Gen.KernelIdeal.Skeleton
import proofs.«146434_j9225589752302_1_alg».proof.Proof.Gen.KernelIdeal.Launch
import proofs.«146434_j9225589752302_1_alg».proof.Proof.Gen.KernelIdeal.Points
import proofs.«146434_j9225589752302_1_alg».proof.Proof.Gen.KernelIdeal.Frame
import proofs.«146434_j9225589752302_1_alg».proof.Proof.Gen.ReferenceIdeal
import proofs.«146434_j9225589752302_1_alg».proof.Proof.Gen.ReferenceIdeal.Run
import proofs.«146434_j9225589752302_1_alg».proof.Proof.Gen.ReferenceIdeal.Read
import proofs.«146434_j9225589752302_1_alg».proof.Proof.Gen.Pre_finite_inputs
import proofs.«146434_j9225589752302_1_alg».proof.Proof.KernelArray
import proofs.«146434_j9225589752302_1_alg».proof.Proof.RefHead
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2)
    (Cert.ReferenceIdeal.Value.run (F := Ideal) m ρ)

/-- From memories agreeing on the arguments both idealized programs end with the batched attention of the reshaped
    arguments, reshaped to [8, 8, 64, 32, 32]: the kernel program by its blocks (`Slabs.run`), the reference by its
    stages read at an index (`Head.stage_eq`). -/
theorem algebraic : Cert.algebraic_KernelIdeal_ReferenceIdeal := by
  intro m ρ m' ρ' _ hagree
  refine ⟨fun c => Cert.KernelIdeal.Slabs.answer m c, Cert.KernelIdeal.Slabs.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq]
  unfold Cert.ReferenceIdeal.Read.val_main_v16
  rw [Cert.ReferenceIdeal.Head.stage_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
